-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  main_v3
-- ==== Kernel.lean ====
abbrev S8388608x4 : Shape := ⟨2, ![8388608, 4]⟩
abbrev S8388608x2x2 : Shape := ⟨3, ![8388608, 2, 2]⟩
abbrev S2048x4 : Shape := ⟨2, ![2048, 4]⟩
abbrev S2048x2x2 : Shape := ⟨3, ![2048, 2, 2]⟩
abbrev S2048x2 : Shape := ⟨2, ![2048, 2]⟩
abbrev S2048 : Shape := ⟨1, ![2048]⟩
abbrev S2048x1 : Shape := ⟨2, ![2048, 1]⟩
abbrev S2048x2x1 : Shape := ⟨3, ![2048, 2, 1]⟩

abbrev nBuf : Space → Nat
  | .hbm => 2
  | .vmem => 4
  | .smem => 0
  | _ => 0

abbrev bufTy : (tb : Table) → Fin (tcTables nBuf tb) → BufTy
  | .hbm, ⟨0, _⟩ => ⟨S8388608x4, .f32⟩
  | .hbm, ⟨1, _⟩ => ⟨S8388608x2x2, .f32⟩
  | .local _ .vmem, ⟨0, _⟩ => ⟨S2048x4, .f32⟩
  | .local _ .vmem, ⟨1, _⟩ => ⟨S2048x4, .f32⟩
  | .local _ .vmem, ⟨2, _⟩ => ⟨S2048x2x2, .f32⟩
  | .local _ .vmem, ⟨3, _⟩ => ⟨S2048x2x2, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x4_S2048x4_0_0 : ∀ a, (![0, 0] : Fin 2 → Nat) a + S2048x4.size a ≤ S2048x4.size a
  h_S2048x4 : 0 < S2048x4.numel
  slices_S2048x4_o0_0_S2048x2 : S2048x4.Slices ![0, 0] S2048x2
  slices_S2048x4_o0_2_S2048x2 : S2048x4.Slices ![0, 2] S2048x2
  reduces_S2048x2_S2048 : S2048x2.Reduces [1] S2048
  shapeCasts_S2048_S2048x1 : S2048.ShapeCasts S2048x1
  broadcasts_S2048x1_S2048x2 : S2048x1.Broadcasts S2048x2
  shapeCasts_S2048x2_S2048x2x1 : S2048x2.ShapeCasts S2048x2x1
  concatenates_S2048x2x1_S2048x2x1_S2048x2x2_d2 : Shape.Concatenates [S2048x2x1, S2048x2x1] S2048x2x2 2
  inb_S2048x2x2_S2048x2x2_0_0_0 : ∀ a, (![0, 0, 0] : Fin 3 → Nat) a + S2048x2x2.size a ≤ S2048x2x2.size a
  h_S2048x2x2 : 0 < S2048x2x2.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S8388608x4.size a
  hwx0_0 : ∀ i : grid0.Coords, EltTy.bits .f32 = 32 ∨ (Rect.block (s := S8388608x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2x2.size a ≤ S8388608x2x2.size a
  hwx0_1 : ∀ i : grid0.Coords, EltTy.bits .f32 = 32 ∨ (Rect.block (s := S8388608x2x2) S2048x2x2.size (cc0_transform_1 i) (hinb0_1 i)).WholeWords (EltTy.packing .f32)

variable [Facts₀]

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2x2.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x2 : Shape := ⟨2, ![8388608, 2]⟩
abbrev S_ : Shape := ⟨0, ![]⟩
abbrev S8388608 : Shape := ⟨1, ![8388608]⟩
abbrev S8388608x1 : Shape := ⟨2, ![8388608, 1]⟩
abbrev S8388608x2x1 : Shape := ⟨3, ![8388608, 2, 1]⟩
abbrev S8388608x2x2 : Shape := ⟨3, ![8388608, 2, 2]⟩

abbrev nBuf : Space → Nat
  | .hbm => 33
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x2, .f32⟩
  | .hbm, ⟨2, _⟩ => ⟨S8388608x2, .f32⟩
  | .hbm, ⟨3, _⟩ => ⟨S8388608x2, .f32⟩
  | .hbm, ⟨4, _⟩ => ⟨S_, .f32⟩
  | .hbm, ⟨5, _⟩ => ⟨S8388608, .f32⟩
  | .hbm, ⟨6, _⟩ => ⟨S8388608x1, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S8388608x2, .f32⟩
  | .hbm, ⟨12, _⟩ => ⟨S8388608x2, .f32⟩
  | .hbm, ⟨13, _⟩ => ⟨S8388608x2, .f32⟩
  | .hbm, ⟨14, _⟩ => ⟨S_, .f32⟩
  | .hbm, ⟨15, _⟩ => ⟨S8388608, .f32⟩
  | .hbm, ⟨16, _⟩ => ⟨S8388608x1, .f32⟩
  | .hbm, ⟨17, _⟩ => ⟨S8388608x2, .f32⟩
  | .hbm, ⟨18, _⟩ => ⟨S8388608x2, .f32⟩
  | .hbm, ⟨19, _⟩ => ⟨S8388608x2, .f32⟩
  | .hbm, ⟨20, _⟩ => ⟨S8388608x2, .f32⟩
  | .hbm, ⟨21, _⟩ => ⟨S_, .f32⟩
  | .hbm, ⟨22, _⟩ => ⟨S8388608, .f32⟩
  | .hbm, ⟨23, _⟩ => ⟨S8388608x1, .f32⟩
  | .hbm, ⟨24, _⟩ => ⟨S8388608x1, .f32⟩
  | .hbm, ⟨25, _⟩ => ⟨S_, .f32⟩
  | .hbm, ⟨26, _⟩ => ⟨S8388608x1, .f32⟩
  | .hbm, ⟨27, _⟩ => ⟨S8388608x1, .f32⟩
  | .hbm, ⟨28, _⟩ => ⟨S8388608x2, .f32⟩
  | .hbm, ⟨29, _⟩ => ⟨S8388608x2, .f32⟩
  | .hbm, ⟨30, _⟩ => ⟨S8388608x2x1, .f32⟩
  | .hbm, ⟨31, _⟩ => ⟨S8388608x2x1, .f32⟩
  | .hbm, ⟨32, _⟩ => ⟨S8388608x2x2, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  slices_S8388608x4_S8388608x2_0_0 : S8388608x4.Slices ![0, 0] S8388608x2
  slices_S8388608x4_S8388608x2_0_2 : S8388608x4.Slices ![0, 2] S8388608x2
  reducesTo_S8388608x2_S8388608_d1 : S8388608x2.ReducesTo [1] S8388608
  h_S_ : 0 < S_.numel
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S8388608x1_S8388608x2_0_1 : S8388608x1.BroadcastsInDim S8388608x2 (![0, 1] : Fin 2 → Fin S8388608x2.rank)
  bcast_S8388608x2_S8388608x2x1_0_1 : S8388608x2.BroadcastsInDim S8388608x2x1 (![0, 1] : Fin 2 → Fin S8388608x2x1.rank)
  concatenates_S8388608x2x1_S8388608x2x1_S8388608x2x2_d2 : Shape.Concatenates [S8388608x2x1, S8388608x2x1] S8388608x2x2 2

variable [Facts₀]

class Facts : Prop extends Facts₀ where

variable [Facts]
-- ==== Proof.Spec.lean ====
/-
  The specification: Gram–Schmidt on the two pairs of a row of four extended reals.

  A row `(x₀, x₁, y₀, y₁)` is read as two pairs `u = (x₀, x₁)` and `v = (y₀, y₁)`. A pair is NORMALIZED by dividing it
  by its Euclidean length `√(u₀² + u₁²)`, the length clamped from below by a fixed positive literal (so a zero pair is
  divided by the literal, not by zero). The result for the row is the 2 × 2 array whose column 0 is the normalized `u`
  and whose column 1 is the normalized REJECTION of `v` from it: `v - û · ⟨û, v⟩` with `û` the normalized `u`.
  Every operation is the extended reals' own (`Ideal.div`, `Ideal.sqrt`, `max`); no law of arithmetic is used between
  the two programs, so nothing here needs the entries to be finite.
-/
import Idealize.ShloMosaic.PureOps.Ideal
import Idealize.ShloMosaic.Lib.ValueIdx

noncomputable section

open scoped BigOperators

namespace Cert.GramSchmidt

open Idealize.ShloMosaic Idealize.ShloMosaic.ValueIdx

/-- Column `k` of the first pair among a row's four columns. -/
abbrev lo (k : Fin 2) : Fin 4 := ⟨k.val, by omega⟩
/-- Column `k` of the second pair among a row's four columns. -/
abbrev hi (k : Fin 2) : Fin 4 := ⟨2 + k.val, by omega⟩

/-- A pair's Euclidean length, clamped from below by the literal both programs carry. -/
def clen (u : Fin 2 → EReal) : EReal :=
  max (Ideal.sqrt (∑ k : Fin 2, u k * u k)) (Ideal.ofBits .f32 0x2B8CBCCC#32)

/-- The pair divided by its clamped length. -/
def nrm (u : Fin 2 → EReal) (j : Fin 2) : EReal := Ideal.div (u j) (clen u)

/-- `v` less its component along the normalized `u`. -/
def rej (u v : Fin 2 → EReal) (j : Fin 2) : EReal := v j - nrm u j * ∑ k : Fin 2, nrm u k * v k

/-- The row's 2 × 2 result at `(j, l)`: column `0` the normalized `u`, column `1` the normalized rejection of `v`. -/
def rowOut (u v : Fin 2 → EReal) (j l : Fin 2) : EReal := if l.val = 0 then nrm u j else nrm (rej u v) j

/-- The whole result as one function of the whole argument: entry `(r, j, l)` is row `r`'s result at `(j, l)`. -/
def G (x : (⟨2, ![8388608, 4]⟩ : Shape).Idx → EReal) : (⟨3, ![8388608, 2, 2]⟩ : Shape).Idx → EReal := fun i =>
  rowOut (fun k => x (ix2 (i 0 : Fin 8388608) (lo k))) (fun k => x (ix2 (i 0 : Fin 8388608) (hi k))) (i 1) (i 2)

theorem G_apply (x : (⟨2, ![8388608, 4]⟩ : Shape).Idx → EReal) (r : Fin 8388608) (j l : Fin 2) :
    G x (ix3 r j l) = rowOut (fun k => x (ix2 r (lo k))) (fun k => x (ix2 r (hi k))) j l := rfl

end Cert.GramSchmidt

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.RefValue.lean ====
/-
  The reference computes the specification.

  The host program's result, read one operation at a time, at row `r`: the two column slices are the row's two pairs;
  each `norm` is the square root of the host's sum of the pair's squares (its initial value is the zero word, which is
  `0`, so the host's sum is the plain sum); the maximum with the literal is the clamped length; the quotient is the
  normalized pair; the second pair less the normalized first times their host-summed product is the rejection; and the
  final join along the last axis selects, by its last coordinate, the normalized first pair or the normalized rejection.
  Each stage is stated at an index built from coordinates, `(r, k)` or `(r, j, l)`, so that the next stage cites it.
-/
import proofs.«118938_j78185584656832_2_alg».proof.Proof.Gen.ReferenceIdeal.Read
import proofs.«118938_j78185584656832_2_alg».proof.Proof.Spec
import proofs.«118938_j78185584656832_2_alg».proof.Proof.LibColumns

noncomputable section

open scoped BigOperators

namespace Cert.ReferenceIdeal.RefValue

open Cert.ReferenceIdeal Cert.ReferenceIdeal.Read Idealize.ShloMosaic Idealize.ShloMosaic.ValueIdx
open Cert.GramSchmidt Cert.Lib.Columns

variable (x : (⟨S8388608x4, .f32⟩ : BufTy).Contents (Elt Ideal))

/-- Row `r`'s first pair. -/
abbrev X (r : Fin 8388608) : Fin 2 → EReal := fun k => x (ix2 r (lo k))
/-- Row `r`'s second pair. -/
abbrev Y (r : Fin 8388608) : Fin 2 → EReal := fun k => x (ix2 r (hi k))

/-! ## Where each layout operation reads its operand, by coordinates -/

theorem i_v0 (r : Fin 8388608) (k : Fin 2) : idx_main_v0 (ix2 r k) = ix2 r (lo k) :=
  funext fun a => by match a with | ⟨0, _⟩ => rfl | ⟨1, _⟩ => rfl
theorem i_v1 (r : Fin 8388608) (k : Fin 2) : idx_main_v1 (ix2 r k) = ix2 r (hi k) :=
  funext fun a => by match a with | ⟨0, _⟩ => rfl | ⟨1, _⟩ => rfl
theorem i_c0v1 (r : Fin 8388608) (k : Fin 2) : idx_main_call0_v1 (ix1 r) k = ix2 r k :=
  funext fun a => by match a with | ⟨0, _⟩ => rfl | ⟨1, _⟩ => rfl
theorem i_c0v2 (r : Fin 8388608) (u : Fin 1) : idx_main_call0_v2 (ix2 r u) = ix1 r :=
  funext fun a => by match a with | ⟨0, _⟩ => rfl
theorem i_v5 (r : Fin 8388608) (j : Fin 2) : idx_main_v5 (ix2 r j) = ix2 r (0 : Fin 1) :=
  funext fun a => by match a with | ⟨0, _⟩ => rfl | ⟨1, _⟩ => rfl
theorem i_v8 (r : Fin 8388608) (k : Fin 2) : idx_main_v8 (ix1 r) k = ix2 r k :=
  funext fun a => by match a with | ⟨0, _⟩ => rfl | ⟨1, _⟩ => rfl
theorem i_v9 (r : Fin 8388608) (u : Fin 1) : idx_main_v9 (ix2 r u) = ix1 r :=
  funext fun a => by match a with | ⟨0, _⟩ => rfl
theorem i_v10 (r : Fin 8388608) (j : Fin 2) : idx_main_v10 (ix2 r j) = ix2 r (0 : Fin 1) :=
  funext fun a => by match a with | ⟨0, _⟩ => rfl | ⟨1, _⟩ => rfl
theorem i_c1v1 (r : Fin 8388608) (k : Fin 2) : idx_main_call1_v1 (ix1 r) k = ix2 r k :=
  funext fun a => by match a with | ⟨0, _⟩ => rfl | ⟨1, _⟩ => rfl
theorem i_c1v2 (r : Fin 8388608) (u : Fin 1) : idx_main_call1_v2 (ix2 r u) = ix1 r :=
  funext fun a => by match a with | ⟨0, _⟩ => rfl
theorem i_v16 (r : Fin 8388608) (j : Fin 2) : idx_main_v16 (ix2 r j) = ix2 r (0 : Fin 1) :=
  funext fun a => by match a with | ⟨0, _⟩ => rfl | ⟨1, _⟩ => rfl
theorem i_v18 (r : Fin 8388608) (j : Fin 2) (u : Fin 1) : idx_main_v18 (ix3 r j u) = ix2 r j :=
  funext fun a => by match a with | ⟨0, _⟩ => rfl | ⟨1, _⟩ => rfl
theorem i_v19 (r : Fin 8388608) (j : Fin 2) (u : Fin 1) : idx_main_v19 (ix3 r j u) = ix2 r j :=
  funext fun a => by match a with | ⟨0, _⟩ => rfl | ⟨1, _⟩ => rfl

/-! ## The stages, at a row -/

/-- The first slice at `(r, k)` is the first pair's entry `k`. -/
theorem v0_at (r : Fin 8388608) (k : Fin 2) : val_main_v0 (F := Ideal) x (ix2 r k) = X x r k :=
  (val_main_v0_apply x _).trans (congrArg x (i_v0 r k))

/-- The second slice at `(r, k)` is the second pair's entry `k`. -/
theorem v1_at (r : Fin 8388608) (k : Fin 2) : val_main_v1 (F := Ideal) x (ix2 r k) = Y x r k :=
  (val_main_v1_apply x _).trans (congrArg x (i_v1 r k))

/-- The first `norm`'s host sum at row `r`: the sum of the first pair's squares (the initial value is `0`). -/
theorem c0v1_at (r : Fin 8388608) :
    val_main_call0_v1 (F := Ideal) x (ix1 r) = ∑ k : Fin 2, X x r k * X x r k := by
  rw [val_main_call0_v1_apply, val_main_call0_cst_apply, Ideal.ofBits_def, Ideal.ofBits_zero_f32, zero_add]
  refine Finset.sum_congr rfl fun k _ => ?_
  rw [i_c0v1 r k, val_main_call0_v0_apply, v0_at]
  rfl

/-- The first clamped length, as a column entry of row `r`. -/
theorem v4_at (r : Fin 8388608) (u : Fin 1) : val_main_v4 (F := Ideal) x (ix2 r u) = clen (X x r) := by
  rw [val_main_v4_apply, val_main_v2_apply, val_main_call0_v2_apply, i_c0v2 r u, c0v1_at, val_main_v3_apply,
    val_main_cst_apply]
  rfl

/-- The first quotient at `(r, j)`: the normalized first pair. -/
theorem v6_at (r : Fin 8388608) (j : Fin 2) : val_main_v6 (F := Ideal) x (ix2 r j) = nrm (X x r) j := by
  rw [val_main_v6_apply, v0_at, val_main_v5_apply, i_v5 r j, v4_at]
  rfl

/-- The host-summed product of the normalized first pair with the second pair, at row `r`. -/
theorem v8_at (r : Fin 8388608) :
    val_main_v8 (F := Ideal) x (ix1 r) = ∑ k : Fin 2, nrm (X x r) k * Y x r k := by
  rw [val_main_v8_apply, val_main_cst_0_apply, Ideal.ofBits_def, Ideal.ofBits_zero_f32, zero_add]
  refine Finset.sum_congr rfl fun k _ => ?_
  rw [i_v8 r k, val_main_v7_apply, v6_at, v1_at]
  rfl

/-- The difference at `(r, j)`: the rejection of the second pair from the normalized first. -/
theorem v12_at (r : Fin 8388608) (j : Fin 2) : val_main_v12 (F := Ideal) x (ix2 r j) = rej (X x r) (Y x r) j := by
  rw [val_main_v12_apply, v1_at, val_main_v11_apply, v6_at, val_main_v10_apply, i_v10 r j, val_main_v9_apply,
    i_v9 r (0 : Fin 1), v8_at]
  rfl

/-- The second `norm`'s host sum at row `r`: the sum of the rejection's squares. -/
theorem c1v1_at (r : Fin 8388608) :
    val_main_call1_v1 (F := Ideal) x (ix1 r) = ∑ k : Fin 2, rej (X x r) (Y x r) k * rej (X x r) (Y x r) k := by
  rw [val_main_call1_v1_apply, val_main_call1_cst_apply, Ideal.ofBits_def, Ideal.ofBits_zero_f32, zero_add]
  refine Finset.sum_congr rfl fun k _ => ?_
  rw [i_c1v1 r k, val_main_call1_v0_apply, v12_at]
  rfl

/-- The second clamped length, as a column entry of row `r`. -/
theorem v15_at (r : Fin 8388608) (u : Fin 1) :
    val_main_v15 (F := Ideal) x (ix2 r u) = clen (rej (X x r) (Y x r)) := by
  rw [val_main_v15_apply, val_main_v13_apply, val_main_call1_v2_apply, i_c1v2 r u, c1v1_at, val_main_v14_apply,
    val_main_cst_1_apply]
  rfl

/-- The second quotient at `(r, j)`: the normalized rejection. -/
theorem v17_at (r : Fin 8388608) (j : Fin 2) :
    val_main_v17 (F := Ideal) x (ix2 r j) = nrm (rej (X x r) (Y x r)) j := by
  rw [val_main_v17_apply, v12_at, val_main_v16_apply, i_v16 r j, v15_at]
  rfl

/-- The join at `(r, j, l)` is row `r`'s result at `(j, l)`. -/
theorem v20_at (r : Fin 8388608) (j l : Fin 2) :
    val_main_v20 (F := Ideal) x (ix3 r j l) = rowOut (X x r) (Y x r) j l := by
  unfold val_main_v20
  refine (concatenate_ab1_ab1_apply (val_main_v18 (F := Ideal) x) (val_main_v19 (F := Ideal) x) _ r j l).trans ?_
  rw [val_main_v18_apply, i_v18 r j (0 : Fin 1), v6_at, val_main_v19_apply, i_v19 r j (0 : Fin 1), v17_at]
  rfl

/-- The reference's last stage IS the specification of its argument. -/
theorem stage_eq_spec : val_main_v20 (F := Ideal) x = G x := by
  funext i
  obtain ⟨r, j, l, rfl⟩ : ∃ (r : Fin 8388608) (j l : Fin 2), i = ix3 r j l := ⟨i 0, i 1, i 2, eq_ix3 i⟩
  rw [v20_at, G_apply]

end Cert.ReferenceIdeal.RefValue

end
-- ==== Proof.KernelBlock.lean ====
/-
  The kernel's body computes the specification on its block.

  The body loads a block of 2048 rows of four, and stores one value: the join, along a trailing axis, of two `[2048, 2]`
  arrays recast to `[2048, 2, 1]`. Reading that value at `(r, j, l)`: the join selects by `l`; the recast passes `(r, j)`
  through; each array is a quotient by a column broadcast along the row, the column being the maximum of the literal with
  the square root of a lane sum recast as a column — the clamped length of the pair in row `r`. So the first array is the
  normalized first pair, the second the normalized rejection, of row `r` of the block, and only row `r` is read.
  The stages are named after what they compute, each read at `(r, j)` GIVEN what its operand holds along row `r`.
-/
import proofs.«118938_j78185584656832_2_alg».proof.Proof.Gen.KernelIdeal.Skeleton
import proofs.«118938_j78185584656832_2_alg».proof.Proof.Spec
import proofs.«118938_j78185584656832_2_alg».proof.Proof.LibColumns
import Idealize.ShloMosaic.Lib.ValueLayout

noncomputable section

open scoped BigOperators

namespace Cert.KernelIdeal.Block

open Cert.KernelIdeal Cert.KernelIdeal.Gen Idealize.ShloMosaic Idealize.ShloMosaic.ValueIdx
open Cert.GramSchmidt Cert.Lib.Columns

/-! ## The body's stages as vector terms -/

/-- The block's first two columns. -/
def kx (P : Vec Ideal S2048x4 .f32) : FVec Ideal S2048x2 .f32 :=
  extractStridedSlice S2048x2 ![0, 0] P slices_S2048x4_o0_0_S2048x2
/-- The block's last two columns. -/
def ky (P : Vec Ideal S2048x4 .f32) : FVec Ideal S2048x2 .f32 :=
  extractStridedSlice S2048x2 ![0, 2] P slices_S2048x4_o0_2_S2048x2
/-- The column of clamped row lengths of a two-column array. -/
def klen (u : FVec Ideal S2048x2 .f32) : FVec Ideal S2048x1 .f32 :=
  maximumf (sqrt (shapeCast S2048x1 (multiReduction .add [1] S2048 (mulf u u) 0x00000000#32 reduces_S2048x2_S2048 (.inl rfl) rfl)
    shapeCasts_S2048_S2048x1)) (broadcast S2048x1 (Scalar.ofBits .f32 0x2B8CBCCC#32))
/-- Each row divided by its clamped length. -/
def knrm (u : FVec Ideal S2048x2 .f32) : FVec Ideal S2048x2 .f32 :=
  divf u (broadcastTo S2048x2 (klen u) broadcasts_S2048x1_S2048x2)
/-- Each row's inner product of two arrays, spread along the row. -/
def kdot (u v : FVec Ideal S2048x2 .f32) : FVec Ideal S2048x2 .f32 :=
  broadcastTo S2048x2 (shapeCast S2048x1 (multiReduction .add [1] S2048 (mulf u v) 0x00000000#32 reduces_S2048x2_S2048 (.inl rfl) rfl)
    shapeCasts_S2048_S2048x1) broadcasts_S2048x1_S2048x2
/-- Each row of `v` less its component along the normalized row of `u`. -/
def krej (u v : FVec Ideal S2048x2 .f32) : FVec Ideal S2048x2 .f32 :=
  subf v (mulf (knrm u) (kdot (knrm u) v))

/-- The stored value is the join of the normalized first pair and the normalized rejection, each with a trailing unit axis. -/
theorem pay_eq (P : Vec Ideal S2048x4 .f32) :
    k0_pay1 P = concatenate S2048x2x2 2 [⟨S2048x2x1, shapeCast S2048x2x1 (knrm (kx P)) shapeCasts_S2048x2_S2048x2x1⟩,
      ⟨S2048x2x1, shapeCast S2048x2x1 (knrm (krej (kx P) (ky P))) shapeCasts_S2048x2_S2048x2x1⟩]
      concatenates_S2048x2x1_S2048x2x1_S2048x2x2_d2 := rfl

/-! ## Two pointwise operations read at an index (by definition) -/

/-- The vector square root at an index is the extended reals' square root of the entry. -/
theorem sqrt_at {s : Shape} {φ : FTy} (v : FVec Ideal s φ) (i : s.Idx) : sqrt v i = Ideal.sqrt (v i) := rfl

/-- A scalar float literal over the extended reals is the literal's value. -/
theorem scalar_ofBits_f32 (b : BitVec 32) : Scalar.ofBits (F := Ideal) .f32 b = Ideal.ofBits .f32 b := rfl

/-! ## The stages at a row -/

variable (P : Vec Ideal S2048x4 .f32)

theorem kx_at (r : Fin 2048) (k : Fin 2) : kx P (ix2 r k) = P (ix2 r (lo k)) :=
  slice2_axis1_apply 0 P slices_S2048x4_o0_0_S2048x2 r k (lo k) (Nat.zero_add _).symm

theorem ky_at (r : Fin 2048) (k : Fin 2) : ky P (ix2 r k) = P (ix2 r (hi k)) :=
  slice2_axis1_apply 2 P slices_S2048x4_o0_2_S2048x2 r k (hi k) rfl

/-- The clamped length of row `r`, when the array holds the pair `a` along that row. -/
theorem klen_at (u : FVec Ideal S2048x2 .f32) (r : Fin 2048) (z : Fin 1) (a : Fin 2 → EReal) (ha : ∀ k, u (ix2 r k) = a k) :
    klen u (ix2 r z) = clen a := by
  unfold klen clen
  rw [maximumf_apply, broadcast_apply, scalar_ofBits_f32, sqrt_at, shapeCast_a_a1_apply]
  refine congrArg (fun s => max (Ideal.sqrt s) (Ideal.ofBits .f32 0x2B8CBCCC#32)) ?_
  refine (multiReduction_add_ab_a_apply (mulf u u) _ reduces_S2048x2_S2048 _ _ r).trans ?_
  refine Finset.sum_congr rfl fun k _ => ?_
  rw [mulf_apply, ha k]

/-- The normalized row `r` at column `j`. -/
theorem knrm_at (u : FVec Ideal S2048x2 .f32) (r : Fin 2048) (j : Fin 2) (a : Fin 2 → EReal) (ha : ∀ k, u (ix2 r k) = a k) :
    knrm u (ix2 r j) = nrm a j := by
  unfold knrm nrm
  rw [divf_apply, broadcastTo_a1_ab_apply, klen_at u r (0 : Fin 1) a ha, ha j]

/-- The inner product of rows `r`, whatever the column it is spread to. -/
theorem kdot_at (u v : FVec Ideal S2048x2 .f32) (r : Fin 2048) (j : Fin 2) (a b : Fin 2 → EReal)
    (ha : ∀ k, u (ix2 r k) = a k) (hb : ∀ k, v (ix2 r k) = b k) : kdot u v (ix2 r j) = ∑ k : Fin 2, a k * b k := by
  unfold kdot
  rw [broadcastTo_a1_ab_apply, shapeCast_a_a1_apply]
  refine (multiReduction_add_ab_a_apply (mulf u v) _ reduces_S2048x2_S2048 _ _ r).trans ?_
  refine Finset.sum_congr rfl fun k _ => ?_
  rw [mulf_apply, ha k, hb k]

/-- The rejection of row `r` at column `j`. -/
theorem krej_at (u v : FVec Ideal S2048x2 .f32) (r : Fin 2048) (j : Fin 2) (a b : Fin 2 → EReal)
    (ha : ∀ k, u (ix2 r k) = a k) (hb : ∀ k, v (ix2 r k) = b k) : krej u v (ix2 r j) = rej a b j := by
  unfold krej rej
  rw [subf_apply, mulf_apply, hb j, knrm_at u r j a ha,
    kdot_at (knrm u) v r j (nrm a) b (fun k => knrm_at u r k a ha) hb]

/-- THE STORED VALUE at `(r, j, l)` is the specification's result for row `r` of the block at `(j, l)`. -/
theorem pay_at (r : Fin 2048) (j l : Fin 2) :
    k0_pay1 P (ix3 r j l) = rowOut (fun k => P (ix2 r (lo k))) (fun k => P (ix2 r (hi k))) j l := by
  rw [pay_eq P]
  refine (concatenate_ab1_ab1_apply _ _ concatenates_S2048x2x1_S2048x2x1_S2048x2x2_d2 r j l).trans ?_
  rw [shapeCast_ab_ab1_apply, shapeCast_ab_ab1_apply,
    knrm_at (kx P) r j (fun k => P (ix2 r (lo k))) (kx_at P r),
    knrm_at (krej (kx P) (ky P)) r j (rej (fun k => P (ix2 r (lo k))) (fun k => P (ix2 r (hi k))))
      (fun k => krej_at (kx P) (ky P) r k _ _ (kx_at P r) (ky_at P r))]
  rfl

/-- The same against the whole-array specification: when row `r` of the block is row `R` of the array, entry for entry,
    the stored value at `(r, j, l)` is the specification of the array at `(R, j, l)`. -/
theorem pay_eq_spec (x : (⟨2, ![8388608, 4]⟩ : Shape).Idx → EReal) (r : Fin 2048) (R : Fin 8388608) (j l : Fin 2)
    (hrow : ∀ k : Fin 4, P (ix2 r k) = x (ix2 R k)) : k0_pay1 P (ix3 r j l) = G x (ix3 R j l) := by
  rw [pay_at, G_apply]
  simp only [hrow]

/-- The same for indices given as such, with their coordinates related: `i` has `y`'s last two coordinates, and every
    block entry in `y`'s row is the array's entry in `i`'s row at the same column. -/
theorem pay_eq_spec_of_coords (x : (⟨2, ![8388608, 4]⟩ : Shape).Idx → EReal) (y : S2048x2x2.Idx)
    (i : (⟨3, ![8388608, 2, 2]⟩ : Shape).Idx) (h1 : (i 1).val = (y 1).val) (h2 : (i 2).val = (y 2).val)
    (hrow : ∀ (q : S2048x4.Idx) (Q : (⟨2, ![8388608, 4]⟩ : Shape).Idx),
      (q 0).val = (y 0).val → (Q 0).val = (i 0).val → (Q 1).val = (q 1).val → P q = x Q) :
    k0_pay1 P y = G x i := by
  obtain ⟨r, j, l, rfl⟩ : ∃ (r : Fin 2048) (j l : Fin 2), y = ix3 r j l := ⟨y 0, y 1, y 2, eq_ix3 y⟩
  obtain ⟨R, J, L, rfl⟩ : ∃ (R : Fin 8388608) (J L : Fin 2), i = ix3 R J L := ⟨i 0, i 1, i 2, eq_ix3 i⟩
  obtain rfl : J = j := Fin.ext h1
  obtain rfl : L = l := Fin.ext h2
  exact pay_eq_spec P x r R J L fun k => hrow (ix2 r k) (ix2 R k) rfl rfl rfl

end Cert.KernelIdeal.Block

end
-- ==== Proof.KernelWhole.lean ====
/-
  From the blocks to the whole array: after the kernel's run its result array is the specification of its argument.

  Grid point `t` of 4096 stages rows `2048·t … 2048·t + 2047` of the argument (all four columns) and writes back the same
  rows of the result (all of the trailing 2 × 2): on the row axis both windows' block index is `t`, on the other axes
  `0`. What the body leaves at block entry `(r, j, l)` depends only on block row `r`, which is array row `2048·t + r`,
  so point `t` writes back exactly block `t` of the specification of the WHOLE argument. Row `R` of the result lies in
  the block of point `R / 2048`, so the blocks cover the result, and the result array ends as the specification.
-/
import proofs.«118938_j78185584656832_2_alg».proof.Proof.Gen.KernelIdeal.Value
import proofs.«118938_j78185584656832_2_alg».proof.Proof.KernelBlock

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.GramSchmidt

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the 4096 points: on the row axis each window's block index is the point's
    number; on every other axis it is `0`. -/
theorem block_index : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the specification of the whole argument array. -/
theorem flushed_eq_spec (c : Dev nD) (t : Fin cfg0.N) :
    (dats m 0 c).flushed 1 t
      = ((cfg0.win 1).blk t).view.read (Elt Ideal) (G (m ((c : Thread nD τ).loc main_arg0))) := by
  rw [Value.flushed1]
  unfold out0_1
  rw [View.canon_unit_zero zero3]
  simp only [View.ld_unit_zero (S := S2048x4) zero2]
  obtain ⟨e0, e1, e2, e3, e4⟩ := block_index t
  funext y
  show k0_pay1 (iblk m c 0 t) y = G (m ((c : Thread nD τ).loc main_arg0)) (((cfg0.win 1).blk t).view.emb y)
  refine Block.pay_eq_spec_of_coords (iblk m c 0 t) (m ((c : Thread nD τ).loc main_arg0)) y
    (((cfg0.win 1).blk t).view.emb y) ?_ ?_ ?_
  · show win0_1.index t (1 : Fin 3) * 2 + 1 * (y 1).val = (y 1).val
    omega
  · show win0_1.index t (2 : Fin 3) * 2 + 1 * (y 2).val = (y 2).val
    omega
  · intro q Q hq hQ0 hQ1
    have hQ0' : (Q 0).val = win0_1.index t (0 : Fin 3) * 2048 + 1 * (y 0).val := hQ0
    show V m c main_arg0 (((cfg0.win 0).blk t).view.emb q) = _
    refine congrArg _ (funext fun a => Fin.ext ?_)
    match a with
    | ⟨0, _⟩ =>
      show win0_0.index t (0 : Fin 2) * 2048 + 1 * (q 0).val = (Q 0).val
      omega
    | ⟨1, _⟩ =>
      show win0_0.index t (1 : Fin 2) * 4 + 1 * (q 1).val = (Q 1).val
      omega

/-- An index of the result array is in point `t`'s block iff each coordinate is in the block's range on its axis. -/
theorem mem_blk (t : Fin cfg0.N) (i : S8388608x2x2.Idx) :
    i ∈ ((cfg0.win 1).blk t).view.set ↔ ∀ a : Fin 3, win0_1.index t a * S2048x2x2.size a ≤ (i a).val
      ∧ (i a).val < win0_1.index t a * S2048x2x2.size a + S2048x2x2.size a := by
  show i ∈ ((View.whole main_v0).slice (win0_1.rect t)).set ↔ _
  rw [View.set_slice_whole, Rect.mem_set_unit]
  exact Iff.rfl

/-- Every index of the result array is in the block of the point numbered by its row divided by 2048. -/
theorem covered (i : S8388608x2x2.Idx) :
    ∃ t : Fin cfg0.N, (cfg0.win 1).flush t = true ∧ i ∈ ((cfg0.win 1).blk t).view.set := by
  have hi0 : (i 0).val < 8388608 := (i 0).isLt
  have hi1 : (i 1).val < 2 := (i 1).isLt
  have hi2 : (i 2).val < 2 := (i 2).isLt
  have hN : grid0.N = 4096 := N_0
  have hlt : (i 0).val / 2048 < grid0.N := by rw [hN]; omega
  obtain ⟨e0, e1, e2, e3, e4⟩ := block_index ⟨(i 0).val / 2048, hlt⟩
  have e2' : win0_1.index ⟨(i 0).val / 2048, hlt⟩ (0 : Fin 3) = (i 0).val / 2048 := e2
  refine ⟨⟨(i 0).val / 2048, hlt⟩, flush0_1 _, ?_⟩
  rw [mem_blk]
  intro a
  match a with
  | ⟨0, _⟩ =>
    show win0_1.index ⟨(i 0).val / 2048, hlt⟩ (0 : Fin 3) * 2048 ≤ (i 0).val
      ∧ (i 0).val < win0_1.index ⟨(i 0).val / 2048, hlt⟩ (0 : Fin 3) * 2048 + 2048
    omega
  | ⟨1, _⟩ =>
    show win0_1.index ⟨(i 0).val / 2048, hlt⟩ (1 : Fin 3) * 2 ≤ (i 1).val
      ∧ (i 1).val < win0_1.index ⟨(i 0).val / 2048, hlt⟩ (1 : Fin 3) * 2 + 2
    omega
  | ⟨2, _⟩ =>
    show win0_1.index ⟨(i 0).val / 2048, hlt⟩ (2 : Fin 3) * 2 ≤ (i 2).val
      ∧ (i 2).val < win0_1.index ⟨(i 0).val / 2048, hlt⟩ (2 : Fin 3) * 2 + 2
    omega

/-- THE RESULT ARRAY after the run is the specification of the argument array. -/
theorem final_eq_spec (c : Dev nD) :
    (dats m 0 c).arrAt 1 cfg0.N = G (m ((c : Thread nD τ).loc main_arg0)) :=
  (dats m 0 c).arrAt_eq_of_cover 1 (G (m ((c : Thread nD τ).loc main_arg0))) (fun t _ => flushed_eq_spec m c t) covered

/-- The kernel's run: every weakly fair execution ends with the result array at the specification of the argument
    array, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final_eq_spec m c), (h c).2⟩) (Value.run_blocks m ρ)

end Cert.KernelIdeal.Whole

end
-- ==== Proof.lean ====
/-
  Per-row Gram–Schmidt on two pairs: a pipelined kernel against its array-level reference, over the extended reals.

  The argument is an array of 8388608 rows of four numbers, each row two pairs `u = (x₀, x₁)`, `v = (y₀, y₁)`. Both
  programs produce, for every row, the 2 × 2 array whose column 0 is `u` divided by its Euclidean length and whose
  column 1 is, likewise normalized, the rejection `v - û · ⟨û, v⟩` of `v` from the normalized `û`; each length is
  clamped from below by one positive literal, the same word in both programs (Proof/Spec.lean: `G`).
  The kernel walks the rows in 4096 blocks of 2048; its body's one stored value is, entry by entry, that function of the
  block's own row (Proof/KernelBlock.lean), the blocks are disjoint ranges of rows that cover the result, so the result
  array ends as `G` of the argument (Proof/KernelWhole.lean). The reference's operations, read one at a time at a row,
  compose to the same `G` (Proof/RefValue.lean). The two sides differ only in how a sum of two terms is written — a lane
  reduction against a host reduction from the zero word — so no law of arithmetic beyond `0 + s = s` joins them, and the
  precondition (finite entries) is never opened: the equality holds at infinite entries too.
  The frames are the generated ones; the idealized kernel is the kernel's own text, so there is nothing to preserve.
-/
import proofs.«118938_j78185584656832_2_alg».proof.Defs
import proofs.«118938_j78185584656832_2_alg».proof.Proof.Gen.Kernel
import proofs.«118938_j78185584656832_2_alg».proof.Proof.Gen.Kernel.Skeleton
import proofs.«118938_j78185584656832_2_alg».proof.Proof.Gen.Kernel.Launch
import proofs.«118938_j78185584656832_2_alg».proof.Proof.Gen.Kernel.Points
import proofs.«118938_j78185584656832_2_alg».proof.Proof.Gen.Kernel.Frame
import proofs.«118938_j78185584656832_2_alg».proof.Proof.Gen.KernelIdeal
import proofs.«118938_j78185584656832_2_alg».proof.Proof.Gen.KernelIdeal.Skeleton
import proofs.«118938_j78185584656832_2_alg».proof.Proof.Gen.KernelIdeal.Launch
import proofs.«118938_j78185584656832_2_alg».proof.Proof.Gen.KernelIdeal.Points
import proofs.«118938_j78185584656832_2_alg».proof.Proof.Gen.KernelIdeal.Frame
import proofs.«118938_j78185584656832_2_alg».proof.Proof.Gen.ReferenceIdeal
import proofs.«118938_j78185584656832_2_alg».proof.Proof.Gen.Pre_finite_inputs
import proofs.«118938_j78185584656832_2_alg».proof.Proof.Gen.KernelIdeal.Value
import proofs.«118938_j78185584656832_2_alg».proof.Proof.Gen.ReferenceIdeal.Run
import proofs.«118938_j78185584656832_2_alg».proof.Proof.Gen.ReferenceIdeal.Read
import Idealize.ShloMosaic.Adequacy
import Idealize.ShloMosaic.Init
import proofs.«118938_j78185584656832_2_alg».proof.Proof.RefValue
import proofs.«118938_j78185584656832_2_alg».proof.Proof.KernelWhole

noncomputable section

namespace Cert.Proof

open Idealize.ShloMosaic Idealize.SL.Sem Cert.GramSchmidt

/-- The kernel as printed runs and leaves its argument alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From arguments that agree, the kernel's result array ends as `G` of its argument and the reference's last stage is
    `G` of its own: one function of one array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.stage_eq_spec, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
